-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v8) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x16 : Shape := ⟨2, ![1048576, 16]⟩
abbrev S_ : Shape := ⟨0, ![]⟩

class Facts : Prop where
  bcast_S_S1048576x16 : S_.BroadcastsInDim S1048576x16 (![] : Fin 0 → Fin S1048576x16.rank)
  reducesTo_S1048576x16_S_d0_1 : S1048576x16.ReducesTo [0, 1] S_
  h_S_ : 0 < S_.numel

variable [Facts]

def fn {F : FTy → Type} [FloatOps F] (main_arg0 : FVec F S1048576x16 .f32) (main_arg1 : FVec F S1048576x16 .f32) : IVec S_ 1 :=
  let main_v0 : FVec F S1048576x16 .f32 := Host.absf main_arg0
  let main_cst : FVec F S_ .f32 := constant S_ .f32 0x7F800000#32
  let main_v1 : FVec F S1048576x16 .f32 := broadcastInDim S1048576x16 ![] bcast_S_S1048576x16 main_cst
  let main_v2 : IVec S1048576x16 1 := cmpf .olt main_v0 main_v1
  let main_c : IVec S_ 1 := constantI S_ 1 1#1
  let main_v3 : IVec S_ 1 := (fun x v => Host.reduce IntOp.andi x v reducesTo_S1048576x16_S_d0_1 h_S_) main_v2 main_c
  let main_v4 : FVec F S1048576x16 .f32 := Host.absf main_arg1
  let main_cst_0 : FVec F S_ .f32 := constant S_ .f32 0x7F800000#32
  let main_v5 : FVec F S1048576x16 .f32 := broadcastInDim S1048576x16 ![] bcast_S_S1048576x16 main_cst_0
  let main_v6 : IVec S1048576x16 1 := cmpf .olt main_v4 main_v5
  let main_c_1 : IVec S_ 1 := constantI S_ 1 1#1
  let main_v7 : IVec S_ 1 := (fun x v => Host.reduce IntOp.andi x v reducesTo_S1048576x16_S_d0_1 h_S_) main_v6 main_c_1
  let main_v8 : IVec S_ 1 := andi main_v3 main_v7
  main_v8
-- ==== Kernel.lean ====
abbrev S1048576x16 : Shape := ⟨2, ![1048576, 16]⟩
abbrev S1048576x16x16 : Shape := ⟨3, ![1048576, 16, 16]⟩
abbrev S1024x16 : Shape := ⟨2, ![1024, 16]⟩
abbrev S1024x16x16 : Shape := ⟨3, ![1024, 16, 16]⟩
abbrev S16x16 : Shape := ⟨2, ![16, 16]⟩
abbrev S1x16x16 : Shape := ⟨3, ![1, 16, 16]⟩

abbrev nBuf : Space → Nat
  | .hbm => 5
  | .vmem => 10
  | .smem => 0
  | _ => 0

abbrev bufTy : (tb : Table) → Fin (tcTables nBuf tb) → BufTy
  | .hbm, ⟨0, _⟩ => ⟨S1048576x16, .f32⟩
  | .hbm, ⟨1, _⟩ => ⟨S1048576x16, .f32⟩
  | .hbm, ⟨2, _⟩ => ⟨S1048576x16, .f32⟩
  | .hbm, ⟨3, _⟩ => ⟨S1048576x16, .f32⟩
  | .hbm, ⟨4, _⟩ => ⟨S1048576x16x16, .f32⟩
  | .local _ .vmem, ⟨0, _⟩ => ⟨S1024x16, .f32⟩
  | .local _ .vmem, ⟨1, _⟩ => ⟨S1024x16, .f32⟩
  | .local _ .vmem, ⟨2, _⟩ => ⟨S1024x16, .f32⟩
  | .local _ .vmem, ⟨3, _⟩ => ⟨S1024x16, .f32⟩
  | .local _ .vmem, ⟨4, _⟩ => ⟨S1024x16, .f32⟩
  | .local _ .vmem, ⟨5, _⟩ => ⟨S1024x16, .f32⟩
  | .local _ .vmem, ⟨6, _⟩ => ⟨S1024x16, .f32⟩
  | .local _ .vmem, ⟨7, _⟩ => ⟨S1024x16, .f32⟩
  | .local _ .vmem, ⟨8, _⟩ => ⟨S1024x16x16, .f32⟩
  | .local _ .vmem, ⟨9, _⟩ => ⟨S1024x16x16, .f32⟩
  | _, _ => ⟨S1048576x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x16x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x16_S1024x16_0_0 : ∀ a, (![0, 0] : Fin 2 → Nat) a + S1024x16.size a ≤ S1024x16.size a
  h_S1024x16 : 0 < S1024x16.numel
  iota_S16x16_d0_w32 : S16x16.Iotas .tc 32 [0]
  iota_S16x16_d1_w32 : S16x16.Iotas .tc 32 [1]
  shapeCasts_S16x16_S1x16x16 : S16x16.ShapeCasts S1x16x16
  broadcasts_S1x16x16_S1024x16x16 : S1x16x16.Broadcasts S1024x16x16
  inb_S1024x16x16_S1024x16x16_0_0_0 : ∀ a, (![0, 0, 0] : Fin 3 → Nat) a + S1024x16x16.size a ≤ S1024x16x16.size a
  h_S1024x16x16 : 0 < S1024x16x16.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S1048576x16.size a
  hwx0_0 : ∀ i : grid0.Coords, EltTy.bits .f32 = 32 ∨ (Rect.block (s := S1048576x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x16.size a ≤ S1048576x16.size a
  hwx0_1 : ∀ i : grid0.Coords, EltTy.bits .f32 = 32 ∨ (Rect.block (s := S1048576x16) S1024x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S1048576x16.size a
  hwx0_2 : ∀ i : grid0.Coords, EltTy.bits .f32 = 32 ∨ (Rect.block (s := S1048576x16) S1024x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S1048576x16.size a
  hwx0_3 : ∀ i : grid0.Coords, EltTy.bits .f32 = 32 ∨ (Rect.block (s := S1048576x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16x16.size a ≤ S1048576x16x16.size a
  hwx0_4 : ∀ i : grid0.Coords, EltTy.bits .f32 = 32 ∨ (Rect.block (s := S1048576x16x16) S1024x16x16.size (cc0_transform_4 i) (hinb0_4 i)).WholeWords (EltTy.packing .f32)

variable [Facts₀]

abbrev win0_0 : Pipeline.Window sig grid0 :=
  Pipeline.Window.ofSpec (Memref.whole main_arg0) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x16.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1024x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1024x16x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1048576x16 : Shape := ⟨2, ![1048576, 16]⟩
abbrev S_ : Shape := ⟨0, ![]⟩
abbrev S16x16 : Shape := ⟨2, ![16, 16]⟩
abbrev S1048576x1x16 : Shape := ⟨3, ![1048576, 1, 16]⟩
abbrev S1x16x16 : Shape := ⟨3, ![1, 16, 16]⟩
abbrev S1048576x16x16 : Shape := ⟨3, ![1048576, 16, 16]⟩
abbrev S1048576 : Shape := ⟨1, ![1048576]⟩
abbrev S16 : Shape := ⟨1, ![16]⟩
abbrev S1x16 : Shape := ⟨2, ![1, 16]⟩

abbrev nBuf : Space → Nat
  | .hbm => 55
  | .vmem => 0
  | .smem => 0
  | _ => 0

abbrev bufTy : (tb : Table) → Fin (tcTables nBuf tb) → BufTy
  | .hbm, ⟨0, _⟩ => ⟨S1048576x16, .f32⟩
  | .hbm, ⟨1, _⟩ => ⟨S1048576x16, .f32⟩
  | .hbm, ⟨2, _⟩ => ⟨S1048576x16, .f32⟩
  | .hbm, ⟨3, _⟩ => ⟨S1048576x16, .f32⟩
  | .hbm, ⟨4, _⟩ => ⟨S1048576x16, .f32⟩
  | .hbm, ⟨5, _⟩ => ⟨S1048576x16, .f32⟩
  | .hbm, ⟨6, _⟩ => ⟨S_, .f32⟩
  | .hbm, ⟨7, _⟩ => ⟨S1048576x16, .f32⟩
  | .hbm, ⟨8, _⟩ => ⟨S1048576x16, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1048576x16, .f32⟩
  | .hbm, ⟨13, _⟩ => ⟨S1048576x16, .f32⟩
  | .hbm, ⟨14, _⟩ => ⟨S16x16, .i32⟩
  | .hbm, ⟨15, _⟩ => ⟨S16x16, .i32⟩
  | .hbm, ⟨16, _⟩ => ⟨S_, .i32⟩
  | .hbm, ⟨17, _⟩ => ⟨S16x16, .i32⟩
  | .hbm, ⟨18, _⟩ => ⟨S16x16, .i32⟩
  | .hbm, ⟨19, _⟩ => ⟨S16x16, .i1⟩
  | .hbm, ⟨20, _⟩ => ⟨S16x16, .f32⟩
  | .hbm, ⟨21, _⟩ => ⟨S16x16, .f32⟩
  | .hbm, ⟨22, _⟩ => ⟨S16x16, .f32⟩
  | .hbm, ⟨23, _⟩ => ⟨S1048576x16, .f32⟩
  | .hbm, ⟨24, _⟩ => ⟨S1048576x16, .f32⟩
  | .hbm, ⟨25, _⟩ => ⟨S_, .f32⟩
  | .hbm, ⟨26, _⟩ => ⟨S1048576x16, .f32⟩
  | .hbm, ⟨27, _⟩ => ⟨S1048576x16, .f32⟩
  | .hbm, ⟨28, _⟩ => ⟨S1048576x1x16, .f32⟩
  | .hbm, ⟨29, _⟩ => ⟨S1x16x16, .f32⟩
  | .hbm, ⟨30, _⟩ => ⟨S1048576x16x16, .f32⟩
  | .hbm, ⟨31, _⟩ => ⟨S1048576x16x16, .f32⟩
  | .hbm, ⟨32, _⟩ => ⟨S1048576x16x16, .f32⟩
  | .hbm, ⟨33, _⟩ => ⟨S_, .f32⟩
  | .hbm, ⟨34, _⟩ => ⟨S1048576x16, .f32⟩
  | .hbm, ⟨35, _⟩ => ⟨S1048576x16, .f32⟩
  | .hbm, ⟨36, _⟩ => ⟨S_, .f32⟩
  | .hbm, ⟨37, _⟩ => ⟨S16x16, .f32⟩
  | .hbm, ⟨38, _⟩ => ⟨S16x16, .f32⟩
  | .hbm, ⟨39, _⟩ => ⟨S_, .f32⟩
  | .hbm, ⟨40, _⟩ => ⟨S1048576, .f32⟩
  | .hbm, ⟨41, _⟩ => ⟨S_, .f32⟩
  | .hbm, ⟨42, _⟩ => ⟨S1048576x16, .f32⟩
  | .hbm, ⟨43, _⟩ => ⟨S_, .f32⟩
  | .hbm, ⟨44, _⟩ => ⟨S16, .f32⟩
  | .hbm, ⟨45, _⟩ => ⟨S1x16, .f32⟩
  | .hbm, ⟨46, _⟩ => ⟨S1048576x16, .f32⟩
  | .hbm, ⟨47, _⟩ => ⟨S1048576x16, .f32⟩
  | .hbm, ⟨48, _⟩ => ⟨S1x16, .f32⟩
  | .hbm, ⟨49, _⟩ => ⟨S16x16, .f32⟩
  | .hbm, ⟨50, _⟩ => ⟨S16x16, .f32⟩
  | .hbm, ⟨51, _⟩ => ⟨S16x16, .f32⟩
  | .hbm, ⟨52, _⟩ => ⟨S16x16, .f32⟩
  | .hbm, ⟨53, _⟩ => ⟨S16x16, .f32⟩
  | .hbm, ⟨54, _⟩ => ⟨S1048576x16x16, .f32⟩
  | _, _ => ⟨S1048576x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_cst_6 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]

class Facts₀ : Prop where
  bcast_S_S1048576x16 : S_.BroadcastsInDim S1048576x16 (![] : Fin 0 → Fin S1048576x16.rank)
  reducesTo_S1048576x16_S_d0_1 : S1048576x16.ReducesTo [0, 1] S_
  h_S_ : 0 < S_.numel
  bcast_S_S16x16 : S_.BroadcastsInDim S16x16 (![] : Fin 0 → Fin S16x16.rank)
  slices_S16x16_S16x16_0_0 : S16x16.Slices ![0, 0] S16x16
  bcast_S1048576x16_S1048576x1x16_0_2 : S1048576x16.BroadcastsInDim S1048576x1x16 (![0, 2] : Fin 2 → Fin S1048576x1x16.rank)
  bcast_S16x16_S1x16x16_1_2 : S16x16.BroadcastsInDim S1x16x16 (![1, 2] : Fin 2 → Fin S1x16x16.rank)
  bcast_S1x16x16_S1048576x16x16_0_1_2 : S1x16x16.BroadcastsInDim S1048576x16x16 (![0, 1, 2] : Fin 3 → Fin S1048576x16x16.rank)
  bcast_S1048576x1x16_S1048576x16x16_0_1_2 : S1048576x1x16.BroadcastsInDim S1048576x16x16 (![0, 1, 2] : Fin 3 → Fin S1048576x16x16.rank)
  reducesTo_S1048576x16_S1048576_d1 : S1048576x16.ReducesTo [1] S1048576
  reducesTo_S1048576x16x16_S1048576x16_d2 : S1048576x16x16.ReducesTo [2] S1048576x16
  bcast_S_S16 : S_.BroadcastsInDim S16 (![] : Fin 0 → Fin S16.rank)
  bcast_S16_S1x16_1 : S16.BroadcastsInDim S1x16 (![1] : Fin 1 → Fin S1x16.rank)
  bcast_S1x16_S1048576x16_0_1 : S1x16.BroadcastsInDim S1048576x16 (![0, 1] : Fin 2 → Fin S1048576x16.rank)
  bcast_S1x16_S16x16_0_1 : S1x16.BroadcastsInDim S16x16 (![0, 1] : Fin 2 → Fin S16x16.rank)
  transposes_S16x16_S16x16_1_0 : S16x16.Transposes [1, 0] S16x16
  bcast_S16x16_S1048576x16x16_1_2 : S16x16.BroadcastsInDim S1048576x16x16 (![1, 2] : Fin 2 → Fin S1048576x16x16.rank)

variable [Facts₀]

class Facts : Prop extends Facts₀ where

variable [Facts]
-- ==== Proof.Blocks.lean ====
/-
  How the kernel's grid cuts the arrays.

  The grid has 1024 points.  Every window moves along the sample axis only: at point t its block is the samples
  1024 * t ... 1024 * t + 1023, whole in the remaining axes (16 coordinates, or a 16 x 16 matrix).  So the block
  indices are (t, 0) or (t, 0, 0), an input block and an output block at one point sit over the same samples, and the
  1024 blocks of an output window tile its array: sample s lies in the block of point s / 1024 and in no other.
-/
import proofs.«170552_j56934086476280_1_alg».proof.Proof.Gen.KernelIdeal.Value
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)

/-- The body's accesses start at the origin of their buffers (two axes). -/
theorem origin2 : (![0, 0] : Fin 2 → Nat) = fun _ => 0 := funext fun a => by fin_cases a <;> rfl
/-- The same for three axes. -/
theorem origin3 : (![0, 0, 0] : Fin 3 → Nat) = fun _ => 0 := funext fun a => by fin_cases a <;> rfl

/-- The block indices of all five windows at a grid point: the point's number on the sample axis, zero on the
    others (decided over the 1024 points). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- An index of the squared-error array is in point t's block iff each coordinate is in the block's range. -/
theorem mem_block2 (t : Fin cfg0.N) (i : S1048576x16.Idx) :
    i ∈ ((cfg0.win 2).blk t).view.set ↔ ∀ a : Fin 2, win0_2.index t a * S1024x16.size a ≤ (i a).val ∧ (i a).val < win0_2.index t a * S1024x16.size a + S1024x16.size a := by
  show i ∈ ((View.whole main_v0_0).slice (win0_2.rect t)).set ↔ _
  rw [View.set_slice_whole, Rect.mem_set_unit]
  exact Iff.rfl

/-- The same for the derivative's array. -/
theorem mem_block3 (t : Fin cfg0.N) (i : S1048576x16.Idx) :
    i ∈ ((cfg0.win 3).blk t).view.set ↔ ∀ a : Fin 2, win0_3.index t a * S1024x16.size a ≤ (i a).val ∧ (i a).val < win0_3.index t a * S1024x16.size a + S1024x16.size a := by
  show i ∈ ((View.whole main_v0_1).slice (win0_3.rect t)).set ↔ _
  rw [View.set_slice_whole, Rect.mem_set_unit]
  exact Iff.rfl

/-- The same for the array of second derivatives. -/
theorem mem_block4 (t : Fin cfg0.N) (i : S1048576x16x16.Idx) :
    i ∈ ((cfg0.win 4).blk t).view.set ↔ ∀ a : Fin 3, win0_4.index t a * S1024x16x16.size a ≤ (i a).val ∧ (i a).val < win0_4.index t a * S1024x16x16.size a + S1024x16x16.size a := by
  show i ∈ ((View.whole main_v0_2).slice (win0_4.rect t)).set ↔ _
  rw [View.set_slice_whole, Rect.mem_set_unit]
  exact Iff.rfl

/-- The grid point whose block holds sample s. -/
def pointOf (s : Nat) (hs : s < 1048576) : Fin cfg0.N := ⟨s / 1024, by show s / 1024 < 1024; omega⟩

theorem pointOf_val (s : Nat) (hs : s < 1048576) : (pointOf s hs).val = s / 1024 := rfl

/-- Every index of the squared-error array is in the block of its sample's point, which is written back. -/
theorem covered2 (i : S1048576x16.Idx) :
    ∃ t : Fin cfg0.N, (cfg0.win 2).flush t = true ∧ i ∈ ((cfg0.win 2).blk t).view.set := by
  have hi0 : (i 0).val < 1048576 := (i 0).isLt
  have hi1 : (i 1).val < 16 := (i 1).isLt
  refine ⟨pointOf (i 0).val hi0, flush0_2 _, ?_⟩
  rw [mem_block2]
  obtain ⟨-, -, -, -, e0, e1, -⟩ := block_index (pointOf (i 0).val hi0)
  rw [pointOf_val] at e0
  intro a
  match a with
  | ⟨0, _⟩ => show win0_2.index _ (0 : Fin 2) * 1024 ≤ (i 0).val ∧ (i 0).val < win0_2.index _ (0 : Fin 2) * 1024 + 1024; omega
  | ⟨1, _⟩ => show win0_2.index _ (1 : Fin 2) * 16 ≤ (i 1).val ∧ (i 1).val < win0_2.index _ (1 : Fin 2) * 16 + 16; omega

/-- The same for the derivative's array. -/
theorem covered3 (i : S1048576x16.Idx) :
    ∃ t : Fin cfg0.N, (cfg0.win 3).flush t = true ∧ i ∈ ((cfg0.win 3).blk t).view.set := by
  have hi0 : (i 0).val < 1048576 := (i 0).isLt
  have hi1 : (i 1).val < 16 := (i 1).isLt
  refine ⟨pointOf (i 0).val hi0, flush0_3 _, ?_⟩
  rw [mem_block3]
  obtain ⟨-, -, -, -, -, -, e0, e1, -⟩ := block_index (pointOf (i 0).val hi0)
  rw [pointOf_val] at e0
  intro a
  match a with
  | ⟨0, _⟩ => show win0_3.index _ (0 : Fin 2) * 1024 ≤ (i 0).val ∧ (i 0).val < win0_3.index _ (0 : Fin 2) * 1024 + 1024; omega
  | ⟨1, _⟩ => show win0_3.index _ (1 : Fin 2) * 16 ≤ (i 1).val ∧ (i 1).val < win0_3.index _ (1 : Fin 2) * 16 + 16; omega

/-- The same for the array of second derivatives. -/
theorem covered4 (i : S1048576x16x16.Idx) :
    ∃ t : Fin cfg0.N, (cfg0.win 4).flush t = true ∧ i ∈ ((cfg0.win 4).blk t).view.set := by
  have hi0 : (i 0).val < 1048576 := (i 0).isLt
  have hi1 : (i 1).val < 16 := (i 1).isLt
  have hi2 : (i 2).val < 16 := (i 2).isLt
  refine ⟨pointOf (i 0).val hi0, flush0_4 _, ?_⟩
  rw [mem_block4]
  obtain ⟨-, -, -, -, -, -, -, -, e0, e1, e2⟩ := block_index (pointOf (i 0).val hi0)
  rw [pointOf_val] at e0
  intro a
  match a with
  | ⟨0, _⟩ => show win0_4.index _ (0 : Fin 3) * 1024 ≤ (i 0).val ∧ (i 0).val < win0_4.index _ (0 : Fin 3) * 1024 + 1024; omega
  | ⟨1, _⟩ => show win0_4.index _ (1 : Fin 3) * 16 ≤ (i 1).val ∧ (i 1).val < win0_4.index _ (1 : Fin 3) * 16 + 16; omega
  | ⟨2, _⟩ => show win0_4.index _ (2 : Fin 3) * 16 ≤ (i 2).val ∧ (i 2).val < win0_4.index _ (2 : Fin 3) * 16 + 16; omega

end Cert.KernelIdeal.Blocks

end
-- ==== Proof.Targets.lean ====
/-
  The three arrays both programs are to produce, as functions of the two argument arrays x and y (1048576 samples
  of 16 coordinates each), index by index:

    * the elementwise squared error, (x - y) * (x - y);
    * its derivative in x, t * (x - y), with t the constant the word of 2.0 denotes;
    * its second derivative in x: sample by sample the 16 x 16 matrix with t on the diagonal and the zero word's
      value off it.  The loss separates over coordinates and each coordinate's curvature is constant, so this
      array does not depend on x or y at all, and is the same matrix for every sample.

  They are written with the float operations of an arbitrary instance, so that they can be met both where a program's
  text is read generically and at the extended reals.
-/
import Idealize.ShloMosaic.PureOps

noncomputable section

namespace Cert.SquaredError

open Idealize.ShloMosaic

variable {F : FTy → Type} [FloatOps F]

/-- 1048576 samples of 16 coordinates. -/
abbrev Samples : Shape := ⟨2, ![1048576, 16]⟩
/-- One 16 x 16 matrix per sample. -/
abbrev SampleMats : Shape := ⟨3, ![1048576, 16, 16]⟩

/-- The squared error, coordinate by coordinate. -/
def sqErr (x y : Samples.Idx → Elt F .f32) : Samples.Idx → Elt F .f32 :=
  fun i => FloatOps.mulf (FloatOps.subf (x i) (y i)) (FloatOps.subf (x i) (y i))

/-- Its derivative in the first argument: twice the difference. -/
def sqErrSlope (x y : Samples.Idx → Elt F .f32) : Samples.Idx → Elt F .f32 :=
  fun i => FloatOps.mulf (FloatOps.ofBits .f32 0x40000000#32) (FloatOps.subf (x i) (y i))

/-- Its second derivative: entry (row, column) of every sample's matrix is the constant 2 when row = column and
    zero otherwise. -/
def sqErrCurv : SampleMats.Idx → Elt F .f32 :=
  fun i => if (i 1).val = (i 2).val then FloatOps.ofBits .f32 0x40000000#32 else FloatOps.ofBits .f32 0x00000000#32

end Cert.SquaredError

end
-- ==== Proof.KernelSqErr.lean ====
/-
  The kernel's first output array is the squared error of the arguments.

  At grid point t the body loads the two input blocks whole, subtracts and squares them element by element, and
  stores the result over the whole output block.  The three blocks sit over the same samples (Blocks.lean), so
  what point t writes back is block t of the array  i |-> (x i - y i) * (x i - y i)  of the argument arrays; the
  blocks tile the array, hence after the run the array is that function everywhere.
-/
import proofs.«170552_j56934086476280_1_alg».proof.Proof.Blocks
import proofs.«170552_j56934086476280_1_alg».proof.Proof.Targets

noncomputable section

namespace Cert.KernelIdeal.Arrays

open Cert.KernelIdeal Cert.KernelIdeal.Gen Cert.KernelIdeal.Blocks Cert.SquaredError
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What point t writes back to the first output is block t of the squared error of the argument arrays. -/
theorem sqErr_block (c : Dev nD) (t : Fin cfg0.N) :
    (dats m 0 c).flushed 2 t = ((cfg0.win 2).blk t).view.read (Elt F) (sqErr (V m c main_arg0) (V m c main_arg1)) := by
  rw [Value.flushed2]
  unfold out0_2
  rw [View.canon_unit_zero origin2]
  simp only [View.ld_unit_zero (S := S1024x16) origin2]
  obtain ⟨a0, a1, b0, b1, o0, o1, -⟩ := block_index t
  funext j
  show FloatOps.mulf (FloatOps.subf (V m c main_arg0 (((cfg0.win 0).blk t).view.emb j)) (V m c main_arg1 (((cfg0.win 1).blk t).view.emb j)))
        (FloatOps.subf (V m c main_arg0 (((cfg0.win 0).blk t).view.emb j)) (V m c main_arg1 (((cfg0.win 1).blk t).view.emb j)))
      = FloatOps.mulf (FloatOps.subf (V m c main_arg0 (((cfg0.win 2).blk t).view.emb j)) (V m c main_arg1 (((cfg0.win 2).blk t).view.emb j)))
        (FloatOps.subf (V m c main_arg0 (((cfg0.win 2).blk t).view.emb j)) (V m c main_arg1 (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 1024 + 1 * (j 0).val = win0_2.index t (0 : Fin 2) * 1024 + 1 * (j 0).val; omega
    | ⟨1, _⟩ => show win0_0.index t (1 : Fin 2) * 16 + 1 * (j 1).val = win0_2.index t (1 : Fin 2) * 16 + 1 * (j 1).val; omega
  have h1 : ((cfg0.win 1).blk t).view.emb j = ((cfg0.win 2).blk t).view.emb j := by
    funext a; apply Fin.ext
    match a with
    | ⟨0, _⟩ => show win0_1.index t (0 : Fin 2) * 1024 + 1 * (j 0).val = win0_2.index t (0 : Fin 2) * 1024 + 1 * (j 0).val; omega
    | ⟨1, _⟩ => show win0_1.index t (1 : Fin 2) * 16 + 1 * (j 1).val = win0_2.index t (1 : Fin 2) * 16 + 1 * (j 1).val; omega
  rw [h0, h1]

/-- After the run the first output array is the squared error of the arguments as launched. -/
theorem sqErr_array (c : Dev nD) :
    (dats m 0 c).arrAt 2 cfg0.N
      = sqErr (m ((c : Thread nD τ).loc main_arg0)) (m ((c : Thread nD τ).loc main_arg1)) :=
  (dats m 0 c).arrAt_eq_of_cover 2 (sqErr (V m c main_arg0) (V m c main_arg1)) (fun t _ => sqErr_block m c t) covered2

end Cert.KernelIdeal.Arrays

end
-- ==== Proof.KernelSlope.lean ====
/-
  The kernel's second output array is the derivative of the squared error in its first argument.

  At grid point t the body multiplies the difference of the two input blocks, element by element, by the constant
  the word of 2.0 denotes (splat over the block), and stores the product over the whole output block.  The blocks sit
  over the same samples (Blocks.lean), so point t writes back block t of  i |-> t2 * (x i - y i),  and the blocks
  tile the array.
-/
import proofs.«170552_j56934086476280_1_alg».proof.Proof.Blocks
import proofs.«170552_j56934086476280_1_alg».proof.Proof.Targets

noncomputable section

namespace Cert.KernelIdeal.Arrays

open Cert.KernelIdeal Cert.KernelIdeal.Gen Cert.KernelIdeal.Blocks Cert.SquaredError
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What point t writes back to the second output is block t of twice the difference of the argument arrays. -/
theorem slope_block (c : Dev nD) (t : Fin cfg0.N) :
    (dats m 0 c).flushed 3 t = ((cfg0.win 3).blk t).view.read (Elt F) (sqErrSlope (V m c main_arg0) (V m c main_arg1)) := by
  rw [Value.flushed3]
  unfold out0_3
  rw [View.canon_unit_zero origin2]
  simp only [View.ld_unit_zero (S := S1024x16) origin2]
  obtain ⟨a0, a1, b0, b1, -, -, o0, o1, -⟩ := block_index t
  funext j
  show FloatOps.mulf (FloatOps.ofBits .f32 0x40000000#32)
        (FloatOps.subf (V m c main_arg0 (((cfg0.win 0).blk t).view.emb j)) (V m c main_arg1 (((cfg0.win 1).blk t).view.emb j)))
      = FloatOps.mulf (FloatOps.ofBits .f32 0x40000000#32)
        (FloatOps.subf (V m c main_arg0 (((cfg0.win 3).blk t).view.emb j)) (V m c main_arg1 (((cfg0.win 3).blk t).view.emb j)))
  have h0 : ((cfg0.win 0).blk t).view.emb j = ((cfg0.win 3).blk t).view.emb j := by
    funext a; apply Fin.ext
    match a with
    | ⟨0, _⟩ => show win0_0.index t (0 : Fin 2) * 1024 + 1 * (j 0).val = win0_3.index t (0 : Fin 2) * 1024 + 1 * (j 0).val; omega
    | ⟨1, _⟩ => show win0_0.index t (1 : Fin 2) * 16 + 1 * (j 1).val = win0_3.index t (1 : Fin 2) * 16 + 1 * (j 1).val; omega
  have h1 : ((cfg0.win 1).blk t).view.emb j = ((cfg0.win 3).blk t).view.emb j := by
    funext a; apply Fin.ext
    match a with
    | ⟨0, _⟩ => show win0_1.index t (0 : Fin 2) * 1024 + 1 * (j 0).val = win0_3.index t (0 : Fin 2) * 1024 + 1 * (j 0).val; omega
    | ⟨1, _⟩ => show win0_1.index t (1 : Fin 2) * 16 + 1 * (j 1).val = win0_3.index t (1 : Fin 2) * 16 + 1 * (j 1).val; omega
  rw [h0, h1]

/-- After the run the second output array is twice the difference of the arguments as launched. -/
theorem slope_array (c : Dev nD) :
    (dats m 0 c).arrAt 3 cfg0.N
      = sqErrSlope (m ((c : Thread nD τ).loc main_arg0)) (m ((c : Thread nD τ).loc main_arg1)) :=
  (dats m 0 c).arrAt_eq_of_cover 3 (sqErrSlope (V m c main_arg0) (V m c main_arg1)) (fun t _ => slope_block m c t) covered3

end Cert.KernelIdeal.Arrays

end
-- ==== Proof.Entry.lean ====
/-
  Scalar facts behind the second-derivative array.

  For the squared error of one coordinate, (x - y)^2, the second derivative in x is the constant 2; the loss of a
  sample is the sum over its 16 coordinates, so a sample's matrix of second derivatives is 2 on the diagonal and 0
  off it.  One program writes an entry as a choice between the two constants by the test "row = column"; the other
  as the product 1 * (2 * b), where b is that test read as the number 0 or 1.  On the extended reals these agree:
  1 * z = z for every z, 2 * 1 = 2 and 2 * 0 = 0 (the product with zero is zero also when the other factor is an
  infinity, and here it is the finite constant 2 in any case).  Nothing here depends on the data.
-/
import Idealize.ShloMosaic.PureOps
import Idealize.ShloMosaic.PureOps.Ideal.Laws

noncomputable section

namespace Cert.SquaredError

open Idealize.ShloMosaic

/-- The single-precision word of 1.0 denotes the extended real 1. -/
theorem one_word : Ideal.ofBits .f32 0x3F800000#32 = 1 := by
  simp [Ideal.ofBits, Ideal.ieee, -EReal.coe_mul]; norm_num

/-- Two coordinates below 16, written as 32-bit integers, compare equal exactly when they are equal: the test
    "row = column" as a one-bit value. -/
theorem diag_test (p q : Nat) (hp : p < 16) (hq : q < 16) :
    IntOp.cmpi .eq (BitVec.ofNat 32 p) (BitVec.ofNat 32 q) = if p = q then 1#1 else 0#1 := by
  by_cases h : p = q
  · subst h; simp [IntOp.cmpi]
  · rw [if_neg h]
    have hne : BitVec.ofNat 32 p ≠ BitVec.ofNat 32 q := by
      intro e
      have := congrArg BitVec.toNat e
      simp only [BitVec.toNat_ofNat] at this
      omega
    have hb : (BitVec.ofNat 32 p == BitVec.ofNat 32 q) = false := beq_eq_false_iff_ne.mpr hne
    simp [IntOp.cmpi, hb]

/-- A choice by that test is a choice by the equality of the coordinates. -/
theorem select_diag {α : Type} (p q : Nat) (hp : p < 16) (hq : q < 16) (a b : α) :
    Scalar.select (IntOp.cmpi .eq (BitVec.ofNat 32 p) (BitVec.ofNat 32 q)) a b = if p = q then a else b := by
  rw [diag_test p q hp hq]
  by_cases h : p = q
  · simp [Scalar.select, h]
  · simp [Scalar.select, h]

/-- The entry law: with t the constant the word of 2.0 denotes, 1 * (t * b) for the test b read as a number is t on
    the diagonal and the zero word's value off it. -/
theorem entry_law (p q : Nat) (hp : p < 16) (hq : q < 16) :
    Ideal.ofBits .f32 0x3F800000#32
        * (Ideal.ofBits .f32 0x40000000#32
            * (((IntOp.cmpi .eq (BitVec.ofNat 32 p) (BitVec.ofNat 32 q)).toNat : ℝ) : EReal))
      = if p = q then Ideal.ofBits .f32 0x40000000#32 else Ideal.ofBits .f32 0x00000000#32 := by
  rw [diag_test p q hp hq, one_word, one_mul]
  by_cases h : p = q
  · simp [h]
  · simp [h, Ideal.ofBits_zero_f32]

end Cert.SquaredError

end
-- ==== Proof.KernelCurv.lean ====
/-
  The kernel's third output array is the second derivative of the squared error: the same 16 x 16 matrix for every
  sample, the constant 2 on the diagonal and zero off it.

  The body builds the matrix without reading its inputs: the row number and the column number of a 16 x 16 tile are
  compared, the comparison chooses between the two constants, and the tile is repeated along the sample axis of the
  block (a unit axis is put in front and stretched to the block's 1024 samples).  Read at (sample, row, column)
  this is the choice by "row = column".  A block covers whole matrices, so the row and column of an element of block
  t are its row and column in the array, and point t writes back block t of the target; the blocks tile the array.
-/
import proofs.«170552_j56934086476280_1_alg».proof.Proof.Blocks
import proofs.«170552_j56934086476280_1_alg».proof.Proof.Targets
import proofs.«170552_j56934086476280_1_alg».proof.Proof.Entry
import Idealize.ShloMosaic.Lib.ValueIdx

noncomputable section

namespace Cert.KernelIdeal.Arrays

open Cert.KernelIdeal Cert.KernelIdeal.Gen Cert.KernelIdeal.Blocks Cert.SquaredError
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The stored value at (sample b, row r, column q) of a block: the stretch along the samples forgets b, the unit
    axis in front is dropped, the two counters read r and q, and the choice by their comparison is the choice by
    r = q. -/
theorem curv_payload (b : Fin 1024) (r q : Fin 16) :
    k0_pay4 (F := F) (ix3 b r q)
      = if r.val = q.val then FloatOps.ofBits .f32 0x40000000#32 else FloatOps.ofBits .f32 0x00000000#32 := by
  unfold k0_pay4
  dsimp only
  rw [broadcastTo_apply _ _ (ix3 b r q) (ix3 (0 : Fin 1) r q) (fun a => by
    match a with
    | ⟨0, _⟩ => rfl
    | ⟨1, _⟩ => rfl
    | ⟨2, _⟩ => rfl)]
  rw [shapeCast_addUnit_apply ![16, 16] _ _ (ix3 (0 : Fin 1) r q)]
  have hidx : (fun a : Fin 2 => ix3 (0 : Fin 1) r q a.succ) = ix2 r q := by
    funext a; match a with | ⟨0, _⟩ => rfl | ⟨1, _⟩ => rfl
  rw [hidx]
  show Scalar.select (IntOp.cmpi .eq (iota .tc S16x16 32 [0] iota_S16x16_d0_w32 (ix2 r q)) (iota .tc S16x16 32 [1] iota_S16x16_d1_w32 (ix2 r q)))
      (FloatOps.ofBits .f32 0x40000000#32) (FloatOps.ofBits .f32 0x00000000#32) = _
  rw [iota_single_apply, iota_single_apply]
  exact select_diag r.val q.val r.isLt q.isLt _ _

/-- What point t writes back to the third output is block t of the second-derivative array. -/
theorem curv_block (c : Dev nD) (t : Fin cfg0.N) :
    (dats m 0 c).flushed 4 t = ((cfg0.win 4).blk t).view.read (Elt F) (sqErrCurv (F := F)) := by
  rw [Value.flushed4]
  unfold out0_4
  rw [View.canon_unit_zero origin3]
  obtain ⟨-, -, -, -, -, -, -, -, o0, o1, o2⟩ := block_index t
  funext j
  obtain ⟨b, r, q, rfl⟩ : ∃ (b : Fin 1024) (r q : Fin 16), j = ix3 b r q := ⟨j 0, j 1, j 2, eq_ix3 j⟩
  show k0_pay4 (F := F) (ix3 b r q) = sqErrCurv (F := F) (((cfg0.win 4).blk t).view.emb (ix3 b r q))
  rw [curv_payload]
  unfold sqErrCurv
  have e1 : ((((cfg0.win 4).blk t).view.emb (ix3 b r q)) 1).val = r.val := by
    show win0_4.index t (1 : Fin 3) * 16 + 1 * r.val = r.val; omega
  have e2 : ((((cfg0.win 4).blk t).view.emb (ix3 b r q)) 2).val = q.val := by
    show win0_4.index t (2 : Fin 3) * 16 + 1 * q.val = q.val; omega
  rw [e1, e2]

/-- After the run the third output array is the second-derivative array. -/
theorem curv_array (c : Dev nD) : (dats m 0 c).arrAt 4 cfg0.N = sqErrCurv (F := F) :=
  (dats m 0 c).arrAt_eq_of_cover 4 (sqErrCurv (F := F)) (fun t _ => curv_block m c t) covered4

end Cert.KernelIdeal.Arrays

end
-- ==== Proof.KernelRun.lean ====
/-
  The kernel's run, with each output array named: every weakly fair execution terminates with the first output at
  the squared error of the arguments, the second at twice their difference, the third at the second-derivative
  array, and the arguments unchanged.  This is the run block by block (the generated value leg) with each array
  replaced by the whole-array function its blocks were shown to make up.
-/
import proofs.«170552_j56934086476280_1_alg».proof.Proof.KernelSqErr
import proofs.«170552_j56934086476280_1_alg».proof.Proof.KernelSlope
import proofs.«170552_j56934086476280_1_alg».proof.Proof.KernelCurv

noncomputable section

namespace Cert.KernelIdeal.Arrays

open Cert.KernelIdeal Cert.KernelIdeal.Gen Cert.SquaredError
open Idealize.ShloMosaic Idealize.ShloMosaic.TcCoe Idealize.SL.Sem

variable {F : FTy → Type} [FloatOps F]
variable (m : (ℓ : Loc nD τ sig) → Buf (Elt F) ℓ) (ρ : Dev nD → PrngReg)

theorem run : θ_run defs (onTc (τ := τ) (main (F := F))) ⟨m, fun _ => 0, ρ⟩ fun r => ∀ c : Dev nD,
      r.2.mem ((c : Thread nD τ).loc main_v0_0)
        = sqErr (m ((c : Thread nD τ).loc main_arg0)) (m ((c : Thread nD τ).loc main_arg1))
      ∧ r.2.mem ((c : Thread nD τ).loc main_v0_1)
        = sqErrSlope (m ((c : Thread nD τ).loc main_arg0)) (m ((c : Thread nD τ).loc main_arg1))
      ∧ r.2.mem ((c : Thread nD τ).loc main_v0_2) = sqErrCurv (F := F)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (sqErr_array m c),
      (h c).2.1.trans (slope_array m c),
      (h c).2.2.1.trans (curv_array m c),
      (h c).2.2.2⟩)
    (Value.run_blocks m ρ)

end Cert.KernelIdeal.Arrays

end
-- ==== Proof.ReferenceArrays.lean ====
/-
  The reference's three results are the same three arrays, at the extended reals.

  * The first result is the squared difference, the very expression of the target.
  * The second is 1 * (t2 * (x - y)): differentiating the sum of the squared errors multiplies the incoming
    derivative of the sum, the constant 1, onto twice the difference.  1 * z = z for every extended real z, the
    infinities included, so this is t2 * (x - y).
  * The third is obtained by differentiating once more, one basis direction at a time.  What is left of that in the
    program's result is a 16 x 16 matrix built without the data — the test "row = column" read as the number 0 or
    1, times 2, times 1 —, transposed, and repeated for every sample.  Entry (row, column) of the result therefore
    reads the test at (column, row), which is symmetric, and the entry law (Entry.lean) makes it the constant 2 on
    the diagonal and zero off it.
-/
import proofs.«170552_j56934086476280_1_alg».proof.Proof.Gen.ReferenceIdeal.Read
import proofs.«170552_j56934086476280_1_alg».proof.Proof.Targets
import proofs.«170552_j56934086476280_1_alg».proof.Proof.Entry

noncomputable section

namespace Cert.ReferenceIdeal.Arrays

open Cert.ReferenceIdeal Cert.ReferenceIdeal.Read Cert.SquaredError
open Idealize.ShloMosaic Idealize.ShloMosaic.TcCoe Idealize.SL.Sem

/-- The first result is the squared error of the arguments (for any reading of the float operations). -/
theorem sqErr_stage {F : FTy → Type} [FloatOps F] (x y : (⟨S1048576x16, .f32⟩ : BufTy).Contents (Elt F)) :
    val_main_v1 (F := F) x y = sqErr x y := rfl

/-- The second result is twice the difference: the factor 1 in front drops out. -/
theorem slope_stage (x y : (⟨S1048576x16, .f32⟩ : BufTy).Contents (Elt Ideal)) :
    val_main_v8 (F := Ideal) x y = sqErrSlope x y := by
  funext i
  rw [val_main_v8_apply, val_main_v7_apply, val_main_cst_1_apply, val_main_v5_apply, val_main_v4_apply,
    val_main_cst_apply, val_main_v2_apply]
  show Ideal.ofBits .f32 0x3F800000#32 * (Ideal.ofBits .f32 0x40000000#32 * (x i - y i))
      = Ideal.ofBits .f32 0x40000000#32 * (x i - y i)
  rw [one_word, one_mul]

/-- The third result is the second-derivative array: entry (row, column) reads the diagonal test at
    (column, row). -/
theorem curv_stage : val_main_v42 (F := Ideal) = sqErrCurv (F := Ideal) := by
  funext i
  rw [val_main_v42_apply, val_main_v41_apply, val_main_v40_apply, val_main_v39_apply, val_main_v38_apply,
    val_main_v37_apply, val_main_v36_apply, val_main_v32_apply, val_main_cst_7_apply, val_main_v29_apply,
    val_main_v28_apply, val_main_cst_4_apply, val_main_v16_apply, val_main_v15_apply, val_main_v14_apply,
    val_main_v13_apply, val_main_v12_apply, val_main_v9_apply, val_main_v11_apply, val_main_c_apply,
    val_main_v10_apply]
  have h1 : (i 1).val < 16 := (i 1).isLt
  have h2 : (i 2).val < 16 := (i 2).isLt
  show Ideal.ofBits .f32 0x3F800000#32
        * (Ideal.ofBits .f32 0x40000000#32
            * (((IntOp.cmpi .eq (BitVec.ofNat 32 (i 2).val + 0#32) (BitVec.ofNat 32 (i 1).val)).toNat : ℝ) : EReal))
      = if (i 1).val = (i 2).val then Ideal.ofBits .f32 0x40000000#32 else Ideal.ofBits .f32 0x00000000#32
  rw [BitVec.add_zero, entry_law (i 2).val (i 1).val h2 h1]
  by_cases h : (i 1).val = (i 2).val
  · rw [if_pos h, if_pos h.symm]
  · rw [if_neg h, if_neg (fun e => h e.symm)]

end Cert.ReferenceIdeal.Arrays

end
-- ==== Proof.lean ====
/-
  The kernel and the reference compute the same three arrays from two arrays x, y of 1048576 samples of 16
  coordinates: the elementwise squared error (x - y)^2, its derivative in x, and its second derivative in x.

  At the extended reals both programs' first result is (x - y) * (x - y) and nothing is to be shown.  The second is
  t2 * (x - y) in the kernel and 1 * (t2 * (x - y)) in the reference, with t2 the constant the word of 2.0 denotes;
  1 * z = z holds for every extended real.  The third does not depend on the data: each sample's matrix has t2 on
  the diagonal and zero off it, chosen by the test "row = column" in the kernel, and written 1 * (t2 * b) with b that
  test as a number, then transposed, in the reference (Proof/Entry.lean has the law; the transposition is harmless
  because the test is symmetric).  No law used here needs the inputs to be finite, so the precondition is never
  opened.

  The kernel works on blocks of 1024 samples at 1024 grid points; Proof/Blocks.lean has the geometry,
  Proof/KernelSqErr.lean, KernelSlope.lean and KernelCurv.lean what each point writes to each output and the whole
  arrays, Proof/KernelRun.lean the run.  Proof/ReferenceArrays.lean reads the reference's results.  The word-level
  kernel enters through its frame only: its idealization rewrote nothing, so that conjunct is trivial.
-/
import proofs.«170552_j56934086476280_1_alg».proof.Defs
import proofs.«170552_j56934086476280_1_alg».proof.Proof.Gen.Kernel
import proofs.«170552_j56934086476280_1_alg».proof.Proof.Gen.Kernel.Skeleton
import proofs.«170552_j56934086476280_1_alg».proof.Proof.Gen.Kernel.Launch
import proofs.«170552_j56934086476280_1_alg».proof.Proof.Gen.Kernel.Points
import proofs.«170552_j56934086476280_1_alg».proof.Proof.Gen.Kernel.Frame
import proofs.«170552_j56934086476280_1_alg».proof.Proof.Gen.KernelIdeal
import proofs.«170552_j56934086476280_1_alg».proof.Proof.Gen.KernelIdeal.Skeleton
import proofs.«170552_j56934086476280_1_alg».proof.Proof.Gen.KernelIdeal.Launch
import proofs.«170552_j56934086476280_1_alg».proof.Proof.Gen.KernelIdeal.Points
import proofs.«170552_j56934086476280_1_alg».proof.Proof.Gen.KernelIdeal.Frame
import proofs.«170552_j56934086476280_1_alg».proof.Proof.Gen.ReferenceIdeal
import proofs.«170552_j56934086476280_1_alg».proof.Proof.Gen.Pre_finite_inputs
import proofs.«170552_j56934086476280_1_alg».proof.Proof.Gen.KernelIdeal.Value
import proofs.«170552_j56934086476280_1_alg».proof.Proof.Gen.ReferenceIdeal.Run
import proofs.«170552_j56934086476280_1_alg».proof.Proof.Gen.ReferenceIdeal.Read
import proofs.«170552_j56934086476280_1_alg».proof.Proof.KernelRun
import proofs.«170552_j56934086476280_1_alg».proof.Proof.ReferenceArrays
import Idealize.ShloMosaic.Adequacy
import Idealize.ShloMosaic.Init

noncomputable section

namespace Cert.Proof

open Idealize.ShloMosaic Idealize.ShloMosaic.TcCoe Idealize.SL.Sem Cert.SquaredError

/-- The word-level kernel runs and leaves its arguments alone. -/
theorem frame_kernel : Cert.frame_Kernel :=
  fun m ρ _ => Cert.Kernel.Gen.frame m ρ

/-- So does the kernel read at the extended reals. -/
theorem frame_kernelIdeal : Cert.frame_KernelIdeal :=
  fun m ρ _ => Cert.KernelIdeal.Gen.frame m ρ

/-- The reference's run, with its results forgotten, is its frame. -/
theorem frame_reference : Cert.frame_ReferenceIdeal :=
  fun m ρ _ => (θ_run Cert.ReferenceIdeal.defs _ _).mono (fun _ h c => (h c).2.2.2)
    (Cert.ReferenceIdeal.Value.run (F := Ideal) m ρ)

/-- From memories agreeing on x and y both programs end with the three target arrays of x and y. -/
theorem algebraic : Cert.algebraic_KernelIdeal_ReferenceIdeal := by
  intro m ρ m' ρ' _ hagree
  refine ⟨fun c => sqErr (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      fun c => sqErrSlope (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      fun _ => sqErrCurv (F := Ideal),
      Cert.KernelIdeal.Arrays.run (F := Ideal) m ρ, ?_⟩
  refine (θ_run Cert.ReferenceIdeal.defs _ _).mono (fun _ h c => ⟨?_, ?_, ?_, (h c).2.2.2⟩)
    (Cert.ReferenceIdeal.Value.run (F := Ideal) m' ρ')
  · rw [(h c).1, Cert.ReferenceIdeal.Read.val_main_v1_eq, Cert.ReferenceIdeal.Arrays.sqErr_stage,
      (hagree c).1, (hagree c).2]
  · rw [(h c).2.1, Cert.ReferenceIdeal.Read.val_main_v8_eq, Cert.ReferenceIdeal.Arrays.slope_stage,
      (hagree c).1, (hagree c).2]
  · rw [(h c).2.2.1, Cert.ReferenceIdeal.Read.val_main_v42_eq, Cert.ReferenceIdeal.Arrays.curv_stage]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
